-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_scale" .f32 0x41200000#32 ((134217728 / 13421773 : ℝ) : EReal)
  ∧ IdealRules.named_const.Statement Cert.KernelIdeal.κ "inv_scale" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S8192x2048 : Shape := ⟨2, ![8192, 2048]⟩
abbrev S2048x8192 : Shape := ⟨2, ![2048, 8192]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x8192 : S_.BroadcastsInDim S2048x8192 (![] : Fin 0 → Fin S2048x8192.rank)
  reducesTo_S2048x8192_S_d0_1 : S2048x8192.ReducesTo [0, 1] S_

variable [Facts]

def fn {F : FTy → Type} [FloatOps F] (main_arg0 : FVec F S4x2048x2048 .f32) (main_arg1 : FVec F S8192x2048 .f32) (main_arg2 : FVec F S2048x8192 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x8192 .f32 := Host.absf main_arg2
  let main_cst_2 : FVec F S_ .f32 := constant S_ .f32 0x7F800000#32
  let main_v10 : FVec F S2048x8192 .f32 := broadcastInDim S2048x8192 ![] bcast_S_S2048x8192 main_cst_2
  let main_v11 : IVec S2048x8192 1 := cmpf .olt main_v9 main_v10
  let main_c_3 : IVec S_ 1 := constantI S_ 1 1#1
  let main_v12 : IVec S_ 1 := (fun x v => Host.reduce IntOp.andi x v reducesTo_S2048x8192_S_d0_1 h_S_) main_v11 main_c_3
  let main_v13 : IVec S_ 1 := andi main_v8 main_v12
  main_v13
-- ==== Kernel.lean ====
abbrev S4x2048x2048 : Shape := ⟨3, ![4, 2048, 2048]⟩
abbrev S8192x2048 : Shape := ⟨2, ![8192, 2048]⟩
abbrev S2048x8192 : Shape := ⟨2, ![2048, 8192]⟩
abbrev S512x2048 : Shape := ⟨2, ![512, 2048]⟩
abbrev S1024x2048 : Shape := ⟨2, ![1024, 2048]⟩
abbrev S2048x1024 : Shape := ⟨2, ![2048, 1024]⟩
abbrev S512x512 : Shape := ⟨2, ![512, 512]⟩
abbrev S2048x512 : Shape := ⟨2, ![2048, 512]⟩

abbrev nBuf : Space → Nat
  | .hbm => 9
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S2048x8192, .f32⟩
  | .hbm, ⟨3, _⟩ => ⟨S8192x2048, .f32⟩
  | .hbm, ⟨4, _⟩ => ⟨S8192x2048, .bf16⟩
  | .hbm, ⟨5, _⟩ => ⟨S8192x2048, .bf16⟩
  | .hbm, ⟨6, _⟩ => ⟨S2048x8192, .bf16⟩
  | .hbm, ⟨7, _⟩ => ⟨S8192x2048, .f32⟩
  | .hbm, ⟨8, _⟩ => ⟨S4x2048x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S512x2048, .f32⟩
  | .local _ .vmem, ⟨7, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S4x2048x2048_S8192x2048 : S4x2048x2048.ShapeCasts S8192x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1024x2048_S512x2048_0_0 : ∀ a, (![0, 0] : Fin 2 → Nat) a + S512x2048.size a ≤ S1024x2048.size a
  inb_S2048x1024_S2048x512_0_0 : ∀ a, (![0, 0] : Fin 2 → Nat) a + S2048x512.size a ≤ S2048x1024.size a
  h_S2048x512 : 0 < S2048x512.numel
  shapeCasts_S2048x512_S2048x512 : S2048x512.ShapeCasts S2048x512
  inb_S1024x2048_S512x2048_512_0 : ∀ a, (![512, 0] : Fin 2 → Nat) a + S512x2048.size a ≤ S1024x2048.size a
  inb_S2048x1024_S2048x512_0_512 : ∀ a, (![0, 512] : Fin 2 → Nat) a + S2048x512.size a ≤ S2048x1024.size a
  shapeCasts_S8192x2048_S4x2048x2048 : S8192x2048.ShapeCasts S4x2048x2048
  dot_S512x2048_S512x2048_S512x512_1_1_0_0_n_n_wf : DotDims.WF S512x2048 S512x2048 S512x512 [1] [1] [0] [0] [] []
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x2048.size a
  hwx0_1 : ∀ i : grid0.Coords, EltTy.bits .bf16 = 32 ∨ (Rect.block (s := S8192x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x8192.size a
  hwx0_2 : ∀ i : grid0.Coords, EltTy.bits .bf16 = 32 ∨ (Rect.block (s := S2048x8192) S2048x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x2048.size a
  hwx0_3 : ∀ i : grid0.Coords, EltTy.bits .f32 = 32 ∨ (Rect.block (s := S8192x2048) S512x2048.size (cc0_transform_3 i) (hinb0_3 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_v1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S8192x2048 : Shape := ⟨2, ![8192, 2048]⟩
abbrev S2048x8192 : Shape := ⟨2, ![2048, 8192]⟩
abbrev S4x2048x8192 : Shape := ⟨3, ![4, 2048, 8192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S2048x8192, .f32⟩
  | .hbm, ⟨3, _⟩ => ⟨S4x2048x8192, .f32⟩
  | .hbm, ⟨4, _⟩ => ⟨S_, .f32⟩
  | .hbm, ⟨5, _⟩ => ⟨S4x2048x8192, .f32⟩
  | .hbm, ⟨6, _⟩ => ⟨S4x2048x8192, .f32⟩
  | .hbm, ⟨7, _⟩ => ⟨S4x2048x8192, .f32⟩
  | .hbm, ⟨8, _⟩ => ⟨S_, .i32⟩
  | .hbm, ⟨9, _⟩ => ⟨S_, .i32⟩
  | .hbm, ⟨10, _⟩ => ⟨S_, .f32⟩
  | .hbm, ⟨11, _⟩ => ⟨S4x2048x8192, .f32⟩
  | .hbm, ⟨12, _⟩ => ⟨S4x2048x8192, .f32⟩
  | .hbm, ⟨13, _⟩ => ⟨S_, .f32⟩
  | .hbm, ⟨14, _⟩ => ⟨S4x2048x8192, .f32⟩
  | .hbm, ⟨15, _⟩ => ⟨S4x2048x8192, .f32⟩
  | .hbm, ⟨16, _⟩ => ⟨S_, .f32⟩
  | .hbm, ⟨17, _⟩ => ⟨S4x2048x8192, .f32⟩
  | .hbm, ⟨18, _⟩ => ⟨S4x2048x8192, .f32⟩
  | .hbm, ⟨19, _⟩ => ⟨S4x2048x8192, .f32⟩
  | .hbm, ⟨20, _⟩ => ⟨S4x2048x8192, .f32⟩
  | .hbm, ⟨21, _⟩ => ⟨S_, .f32⟩
  | .hbm, ⟨22, _⟩ => ⟨S4x2048x8192, .f32⟩
  | .hbm, ⟨23, _⟩ => ⟨S4x2048x8192, .f32⟩
  | .hbm, ⟨24, _⟩ => ⟨S4x2048x8192, .f32⟩
  | .hbm, ⟨25, _⟩ => ⟨S_, .f32⟩
  | .hbm, ⟨26, _⟩ => ⟨S4x2048x8192, .f32⟩
  | .hbm, ⟨27, _⟩ => ⟨S4x2048x8192, .f32⟩
  | .hbm, ⟨28, _⟩ => ⟨S4x2048x8192, .f32⟩
  | .hbm, ⟨29, _⟩ => ⟨S_, .f32⟩
  | .hbm, ⟨30, _⟩ => ⟨S4x2048x8192, .f32⟩
  | .hbm, ⟨31, _⟩ => ⟨S4x2048x8192, .f32⟩
  | .hbm, ⟨32, _⟩ => ⟨S_, .f32⟩
  | .hbm, ⟨33, _⟩ => ⟨S4x2048x8192, .f32⟩
  | .hbm, ⟨34, _⟩ => ⟨S4x2048x8192, .f32⟩
  | .hbm, ⟨35, _⟩ => ⟨S4x2048x8192, .f32⟩
  | .hbm, ⟨36, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_c_0 : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]

class Facts₀ : Prop where
  bcast_S_S4x2048x8192 : S_.BroadcastsInDim S4x2048x8192 (![] : Fin 0 → Fin S4x2048x8192.rank)
  dot_S4x2048x2048_S8192x2048_S4x2048x8192_2_1_01_0_n_n_wf : DotDims.WF S4x2048x2048 S8192x2048 S4x2048x8192 [2] [1] [0, 1] [0] [] []
  dot_S4x2048x8192_S2048x8192_S4x2048x2048_2_1_01_0_n_n_wf : DotDims.WF S4x2048x8192 S2048x8192 S4x2048x2048 [2] [1] [0, 1] [0] [] []

variable [Facts₀]

def dot_S4x2048x2048_S8192x2048_S4x2048x8192_2_1_01_0_n_n : DotDims S4x2048x2048 S8192x2048 S4x2048x8192 where
  lhsContracting := [2]
  rhsContracting := [1]
  lhsNonContracting := [0, 1]
  rhsNonContracting := [0]
  lhsBatch := []
  rhsBatch := []
  wf := dot_S4x2048x2048_S8192x2048_S4x2048x8192_2_1_01_0_n_n_wf
def dot_S4x2048x8192_S2048x8192_S4x2048x2048_2_1_01_0_n_n : DotDims S4x2048x8192 S2048x8192 S4x2048x2048 where
  lhsContracting := [2]
  rhsContracting := [1]
  lhsNonContracting := [0, 1]
  rhsNonContracting := [0]
  lhsBatch := []
  rhsBatch := []
  wf := dot_S4x2048x8192_S2048x8192_S4x2048x2048_2_1_01_0_n_n_wf

class Facts : Prop extends Facts₀ where

variable [Facts]
-- ==== Proof.Spec.lean ====
/-
  The function both programs compute, index by index, on the extended reals.

  For x : [4, 2048, 2048], W1 : [8192, 2048], W2 : [2048, 8192] the result at (b, s, e) is

      ∑ f < 8192,  act (∑ d < 2048, x(b, s, d) · W1(f, d)) · W2(e, f)

  where act h = gelu (clip (round (h · r)) · c) : r the reciprocal of the scale c (the word 0x3DCCCCCD, about one
  tenth), round to the nearest integer with ties to even, clip to [-32768, 32767], and gelu the tanh form
  y · (1/2 · (1 + tanh (κ₁ · (y + κ₂ · y³)))).  The reference divides by c where the kernel multiplies by r; on the
  extended reals a quotient by a nonzero real is the product with its reciprocal, whatever the dividend.  The cube
  is y · (y · y) on one side and (y · y) · y on the other: multiplication commutes.  The reference's clip bounds are
  the integers -32768 and 32767 converted; the kernel's are the words 0xC7000000 and 0x46FFFE00, the same reals.
-/
import Idealize.ShloMosaic.PureOps.Ideal
import Idealize.ShloMosaic.Lib.ValueIdx

noncomputable section

namespace Cert.FfnSpec

open Idealize.ShloMosaic Idealize.ShloMosaic.ValueIdx

/-! ## The constants -/

/-- The scale: the binary32 word nearest one tenth, as the real it denotes. -/
theorem ofBits_scale : Ideal.ofBits .f32 0x3DCCCCCD#32 = ((13421773 / 134217728 : ℝ) : EReal) := by
  simp [Ideal.ofBits, Ideal.ieee, -EReal.coe_mul]; norm_num

/-- The lower clip bound -32768. -/
theorem ofBits_lo : Ideal.ofBits .f32 0xC7000000#32 = ((-32768 : ℝ) : EReal) := by
  simp [Ideal.ofBits, Ideal.ieee, -EReal.coe_mul]; norm_num

/-- The upper clip bound 32767. -/
theorem ofBits_hi : Ideal.ofBits .f32 0x46FFFE00#32 = ((32767 : ℝ) : EReal) := by
  simp [Ideal.ofBits, Ideal.ieee, -EReal.coe_mul]; norm_num

/-- The zero word is zero. -/
theorem ofBits_zero : Ideal.ofBits .f32 0x00000000#32 = 0 := by
  simp [Ideal.ofBits, Ideal.ieee]

/-- The reciprocal of the scale. -/
abbrev recip : EReal := ((134217728 / 13421773 : ℝ) : EReal)

/-! ## The activation -/

/-- Round to the nearest integer (ties to even), then clip to the sixteen-bit range. -/
def quant (z : EReal) : EReal :=
  min (Ideal.ofBits .f32 0x46FFFE00#32) (max (Ideal.ofBits .f32 0xC7000000#32) (Ideal.liftRound Ideal.roundHalfEven z))

/-- The tanh form of gelu, with the cube taken as y · (y · y). -/
def gelu (y : EReal) : EReal :=
  y * (Ideal.ofBits .f32 0x3F000000#32 * (Ideal.ofBits .f32 0x3F800000#32
    + Ideal.tanh (Ideal.ofBits .f32 0x3F4C422A#32 * (y + Ideal.ofBits .f32 0x3D372713#32 * (y * (y * y))))))

/-- The activation of a pre-activation h: quantize h · r, rescale, gelu. -/
def act (h : EReal) : EReal := gelu (quant (h * recip) * Ideal.ofBits .f32 0x3DCCCCCD#32)

/-- A quotient by the scale is the product with its reciprocal, on every extended real. -/
theorem div_scale (h : EReal) : Ideal.div h (Ideal.ofBits .f32 0x3DCCCCCD#32) = h * recip := by
  rw [ofBits_scale, Ideal.div_coe (by norm_num : (13421773 / 134217728 : ℝ) ≠ 0)]
  congr 2; norm_num

/-- The gelu with the cube taken as (y · y) · y is the same function. -/
theorem gelu_cube_comm (y : EReal) :
    y * (Ideal.ofBits .f32 0x3F000000#32 * (Ideal.ofBits .f32 0x3F800000#32
      + Ideal.tanh (Ideal.ofBits .f32 0x3F4C422A#32 * (y + Ideal.ofBits .f32 0x3D372713#32 * ((y * y) * y))))) = gelu y := by
  unfold gelu; rw [mul_comm (y * y) y]

/-- The activation as the reference spells it: quotient by the scale, integer clip bounds converted, the cube as
    (y · y) · y. -/
theorem act_ref (h : EReal) :
    (let y := min (((32767#32 : BitVec 32).toInt : ℝ) : EReal) (max (((4294934528#32 : BitVec 32).toInt : ℝ) : EReal)
        (Ideal.liftRound Ideal.roundHalfEven (Ideal.div h (Ideal.ofBits .f32 0x3DCCCCCD#32)))) * Ideal.ofBits .f32 0x3DCCCCCD#32
     y * (Ideal.ofBits .f32 0x3F000000#32 * (Ideal.ofBits .f32 0x3F800000#32
        + Ideal.tanh (Ideal.ofBits .f32 0x3F4C422A#32 * (y + Ideal.ofBits .f32 0x3D372713#32 * ((y * y) * y))))))
    = act h := by
  have hlo : (((4294934528#32 : BitVec 32).toInt : ℝ) : EReal) = Ideal.ofBits .f32 0xC7000000#32 := by
    rw [ofBits_lo]; have : (4294934528#32 : BitVec 32).toInt = -32768 := by decide
    rw [this]; norm_num
  have hhi : (((32767#32 : BitVec 32).toInt : ℝ) : EReal) = Ideal.ofBits .f32 0x46FFFE00#32 := by
    rw [ofBits_hi]; have : (32767#32 : BitVec 32).toInt = 32767 := by decide
    rw [this]; norm_num
  dsimp only
  rw [hlo, hhi, div_scale]
  unfold act quant
  exact gelu_cube_comm _

/-! ## The whole function -/

/-- The pre-activation at row (b, s) and hidden unit f. -/
def pre (x : (⟨3, ![4, 2048, 2048]⟩ : Shape).Idx → EReal) (w1 : (⟨2, ![8192, 2048]⟩ : Shape).Idx → EReal)
    (b : Fin 4) (s : Fin 2048) (f : Fin 8192) : EReal :=
  ∑ d : Fin 2048, x (ix3 b s d) * w1 (ix2 f d)

/-- The result array as one function of the three argument arrays. -/
def G (x : (⟨3, ![4, 2048, 2048]⟩ : Shape).Idx → EReal) (w1 : (⟨2, ![8192, 2048]⟩ : Shape).Idx → EReal)
    (w2 : (⟨2, ![2048, 8192]⟩ : Shape).Idx → EReal) : (⟨3, ![4, 2048, 2048]⟩ : Shape).Idx → EReal :=
  fun i => ∑ f : Fin 8192, act (pre x w1 (i 0) (i 1) f) * w2 (ix2 (i 2) f)

end Cert.FfnSpec

end
-- ==== Proof.RefIsG.lean ====
import proofs.«123298_j12206297055405_2_alg».proof.Proof.Gen.ReferenceIdeal.Read
import proofs.«123298_j12206297055405_2_alg».proof.Proof.Spec
import Idealize.ShloMosaic.Lib.ValueIdx
import Idealize.ShloMosaic.PureOps.Ideal.Laws

/-!
  The reference program computes the function `G` of `Spec`.

  Read one operation at a time, the reference's result at (b, s, e) is a sum over the 8192 hidden units f of the
  hidden layer at (b, s, f) times W2(e, f).  The hidden layer at (b, s, f) is a chain of pointwise operations on the
  first contraction h = ∑ d < 2048, x(b, s, d) · W1(f, d): divide by the scale, round to the nearest integer with ties
  to even, clip between the converted integers -32768 and 32767, multiply by the scale, and apply the tanh form of
  gelu with the cube spelled (y · y) · y.  That chain is the left side of `act_ref`, so the hidden layer is `act h`,
  and h is `pre x W1 b s f` once the composed index maps are recognised as the coordinate constructors.
-/

noncomputable section

namespace Cert.RefValue

open Cert.ReferenceIdeal Cert.ReferenceIdeal.Read Idealize.ShloMosaic Idealize.ShloMosaic.ValueIdx

/-- On the extended reals the conversion of a signed integer word is the integer itself. -/
theorem sitofp_ideal (b : BitVec 32) : FloatOps.sitofp (F := Ideal) .f32 b = ((b.toInt : ℝ) : EReal) := rfl

/-- The hidden layer at any index j: the activation of the first contraction read at j.  Every operation between the
    two contractions is pointwise, and a broadcast scalar is the same constant at every index, so the value at j is
    the reference's spelling of the activation applied to the sum over d. -/
theorem hidden_apply (x0 : (⟨S4x2048x2048, .f32⟩ : BufTy).Contents (Elt Ideal))
    (x1 : (⟨S8192x2048, .f32⟩ : BufTy).Contents (Elt Ideal)) (j : S4x2048x8192.Idx) :
    val_main_v19 (F := Ideal) x0 x1 j
      = Cert.FfnSpec.act (∑ d : Fin 2048, x0 (lidx_main_v0 j d) * x1 (ridx_main_v0 j d)) := by
  simp only [val_main_v19_apply, val_main_v18_apply, val_main_v17_apply, val_main_v16_apply, val_main_v15_apply,
    val_main_v14_apply, val_main_v13_apply, val_main_v12_apply, val_main_v11_apply, val_main_v10_apply, val_main_v9_apply,
    val_main_v8_apply, val_main_v7_apply, val_main_v6_apply, val_main_v5_apply, val_main_v4_apply,
    val_main_call1_v4_apply, val_main_call1_v3_apply, val_main_call1_v2_apply, val_main_call1_v1_apply,
    val_main_call1_v0_apply, val_main_v3_apply, val_main_v2_apply, val_main_v1_apply, val_main_v0_apply,
    val_main_cst_apply, val_main_cst_1_apply, val_main_cst_2_apply, val_main_cst_3_apply, val_main_cst_4_apply,
    val_main_cst_5_apply, val_main_c_apply, val_main_c_0_apply,
    Ideal.mulf_def, Ideal.addf_def, Ideal.maximumf_def, Ideal.minimumf_def, Ideal.hostDivf_def,
    Ideal.hostUnary_tanh_def, Ideal.hostUnary_roundeven_def, Ideal.ofBits_def, sitofp_ideal]
  exact Cert.FfnSpec.act_ref _

/-- The second contraction reads W2 at (e, f). -/
theorem ridx_out (i : S4x2048x2048.Idx) (k : Fin 8192) : ridx_main_v20 i k = ix2 (i 2) k :=
  funext fun a => Fin.ext (by match a with | ⟨0, _⟩ => rfl | ⟨1, _⟩ => rfl)

/-- Under the second contraction the first one reads x at (b, s, d). -/
theorem lidx_in (i : S4x2048x2048.Idx) (k : Fin 8192) (d : Fin 2048) :
    lidx_main_v0 (lidx_main_v20 i k) d = ix3 (i 0) (i 1) d :=
  funext fun a => Fin.ext (by match a with | ⟨0, _⟩ => rfl | ⟨1, _⟩ => rfl | ⟨2, _⟩ => rfl)

/-- Under the second contraction the first one reads W1 at (f, d). -/
theorem ridx_in (i : S4x2048x2048.Idx) (k : Fin 8192) (d : Fin 2048) :
    ridx_main_v0 (lidx_main_v20 i k) d = ix2 k d :=
  funext fun a => Fin.ext (by match a with | ⟨0, _⟩ => rfl | ⟨1, _⟩ => rfl)

/-- The reference's result is `G` of its three arguments: at (b, s, e) both are the sum over f of the activation of
    the pre-activation at (b, s, f) times W2(e, f), term by term. -/
theorem ref_eq (x0 : (⟨S4x2048x2048, .f32⟩ : BufTy).Contents (Elt Ideal))
    (x1 : (⟨S8192x2048, .f32⟩ : BufTy).Contents (Elt Ideal))
    (x2 : (⟨S2048x8192, .f32⟩ : BufTy).Contents (Elt Ideal)) :
    val_main_v20 (F := Ideal) x0 x1 x2 = Cert.FfnSpec.G x0 x1 x2 := by
  funext i
  rw [val_main_v20_apply]
  unfold Cert.FfnSpec.G Cert.FfnSpec.pre
  refine Finset.sum_congr rfl fun k _ => ?_
  rw [hidden_apply, ridx_out]
  simp only [lidx_in, ridx_in]
  rfl

end Cert.RefValue

end
-- ==== Proof.KernelCases.lean ====
/-
  What one grid step leaves in the output block, for each of the body's two control cases.

  A step at grid point (i, k) holds a 512-row block of the activations' left operand (x0), a 1024-row block of the
  first weight matrix (x1) and a 1024-column block of the second (x2).  The body splits the 1024 hidden units of
  the step into two halves; each half contributes one partial product, added into the output block one after the
  other.  When k = 0 the block is first filled with zeros; otherwise it starts from what the previous step left
  (xo).  So the block ends at  (start + first half's product) + second half's product,  each product a function of
  x0 and the corresponding half of x1 and x2.
-/
import proofs.«123298_j12206297055405_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F] [Named F]

theorem hz : (![0, 0] : Fin 2 → Nat) = fun _ => 0 := funext fun a => by fin_cases a <;> rfl

/-- What a step leaves in the output block that started at `start`: the second half's update of the first half's
    update of `start`; the halves of the two weight blocks are read through their rectangles. -/
def step (x0 : Vec F S512x2048 .bf16) (x1 : Vec F S1024x2048 .bf16) (x2 : Vec F S2048x1024 .bf16)
    (start : Vec F S512x2048 .f32) : Vec F S512x2048 .f32 :=
  k0_pay1 (k0_pay3 x0)
    (View.ld x1 (Rect.unit (s := S1024x2048) ![512, 0] S512x2048.size inb_S1024x2048_S512x2048_512_0))
    (View.ld x2 (Rect.unit (s := S2048x1024) ![0, 512] S2048x512.size inb_S2048x1024_S2048x512_0_512))
    (k0_pay4 x0
      (View.ld x1 (Rect.unit (s := S1024x2048) ![0, 0] S512x2048.size inb_S1024x2048_S512x2048_0_0))
      (View.ld x2 (Rect.unit (s := S2048x1024) ![0, 0] S2048x512.size inb_S2048x1024_S2048x512_0_0))
      start)

/-- A step with k ≠ 0 continues from what the block held. -/
theorem out_B (c : Dev nD) (i : grid0.Coords) (a2 : Memref sig .tc .vmem S512x2048 .bf16) (h2 : a2.IsWhole)
    (a3 : Memref sig .tc .vmem S1024x2048 .bf16) (h3 : a3.IsWhole) (a4 : Memref sig .tc .vmem S2048x1024 .bf16) (h4 : a4.IsWhole)
    (a5 : Memref sig .tc .vmem S512x2048 .f32) (h5 : a5.IsWhole) (hc : ¬cond0_0 i)
    (x0 : Vec F S512x2048 .bf16) (x1 : Vec F S1024x2048 .bf16) (x2 : Vec F S2048x1024 .bf16) (xo : Vec F S512x2048 .f32) :
    out0_B_3 c i a2 h2 a3 h3 a4 h4 a5 h5 hc x0 x1 x2 xo = step x0 x1 x2 xo := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_cons_unit_zero (S := S512x2048) hz, View.readCov_cons_toLoadRect]
  unfold step
  simp only [View.readAt_eq_ld, h2.read_unread, h3.read_unread, h4.read_unread, h5.read_unread,
    View.ld_unit_zero (S := S512x2048) hz]

/-- A step with k = 0 starts from the zero block. -/
theorem out_A (c : Dev nD) (i : grid0.Coords) (a2 : Memref sig .tc .vmem S512x2048 .bf16) (h2 : a2.IsWhole)
    (a3 : Memref sig .tc .vmem S1024x2048 .bf16) (h3 : a3.IsWhole) (a4 : Memref sig .tc .vmem S2048x1024 .bf16) (h4 : a4.IsWhole)
    (a5 : Memref sig .tc .vmem S512x2048 .f32) (h5 : a5.IsWhole) (hc : cond0_0 i)
    (x0 : Vec F S512x2048 .bf16) (x1 : Vec F S1024x2048 .bf16) (x2 : Vec F S2048x1024 .bf16) :
    out0_A_3 c i a2 h2 a3 h3 a4 h4 a5 h5 hc x0 x1 x2 = step x0 x1 x2 (k0_pay2 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S512x2048) hz, View.readCov_cons_toLoadRect, View.readCov_cons_toLoadRect]
  unfold step
  simp only [View.readAt_eq_ld, h2.read_unread, h3.read_unread, h4.read_unread, h5.read_unread,
    View.ld_unit_zero (S := S512x2048) hz]

end Cert.KernelIdeal.Cases

end
-- ==== Proof.LibDotNT.lean ====
/-
  A matrix product against a transposed right operand, read at an entry.  For dimension numbers that contract the
  second axis of BOTH operands (no batch axes), the product of an M × K array by an N × K array at entry (r, c) is the
  sum over k < K of left(r, k) · right(c, k) — the inner product of the left operand's row r with the right operand's
  row c — for the kernel's product into a zero accumulator and for the host's product alike.  The contraction index of
  the dimension numbers is a one-coordinate tuple; the sum is re-indexed by that coordinate.
-/
import Idealize.ShloMosaic.PureOps.Ideal.Laws
import Idealize.ShloMosaic.Lib.ValueIdx

noncomputable section

namespace Cert.LibDotNT

open Idealize.ShloMosaic Idealize.ShloMosaic.ValueIdx

variable {M K N : Nat} {φ₁ φ₂ : FTy}
  (D : DotDims (⟨2, ![M, K]⟩ : Shape) (⟨2, ![N, K]⟩ : Shape) (⟨2, ![M, N]⟩ : Shape))
  (hrank : D.contr.rank = 1) (hsize : D.contr.size ⟨0, by omega⟩ = K)
  (hlc : D.lhsContracting = [1]) (hrc : D.rhsContracting = [1])
  (hL0 : ∀ j k, (D.lhsIdx j k 0).val = (j 0).val) (hR0 : ∀ j k, (D.rhsIdx j k 0).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR0 in
/-- The right operand's index there is (c, k): its row is the output's column. -/
theorem rhsIdx_eq (r : Fin M) (c : Fin N) (k : Fin K) :
    D.rhsIdx (ix2 r c) ((contrEquiv1 D K hrank hsize).symm k) = ix2 c k := by
  funext a; apply Fin.ext
  match a with
  | ⟨0, _⟩ => exact hR0 _ _
  | ⟨1, _⟩ => exact (D.rhsIdx_val_of_single hrc _ _).trans (contrEquiv1_symm_val D K hrank hsize k)

include hrank hsize hlc hrc hL0 hR0 in
/-- The sum over the contraction index is the sum over k < K of the two operands at (r, k) and (c, k). -/
theorem sum_contr (lhs : FVec Ideal (⟨2, ![M, K]⟩ : Shape) φ₁) (rhs : FVec Ideal (⟨2, ![N, K]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 c k) := by
  rw [← Equiv.sum_comp (contrEquiv1 D K hrank hsize).symm]
  refine Finset.sum_congr rfl fun k _ => ?_
  rw [lhsIdx_eq D hrank hsize hlc hL0 r c k, rhsIdx_eq D hrank hsize hrc hR0 r c k]

include hrank hsize hlc hrc hL0 hR0 in
/-- The kernel's product into the zero accumulator, at an entry. -/
theorem matmul_zero_apply (prec : Option ContractPrecision) (lhs : FVec Ideal (⟨2, ![M, K]⟩ : Shape) φ₁)
    (rhs : FVec Ideal (⟨2, ![N, K]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 c k) :=
  (Ideal.matmul_constant_zero_apply D prec lhs rhs (ix2 r c)).trans (sum_contr D hrank hsize hlc hrc hL0 hR0 lhs rhs r c)

include hrank hsize hlc hrc hL0 hR0 in
/-- The host's product, at an entry, whatever its schedule. -/
theorem dotGeneral_apply (prec : Option ContractPrecision) (sched : HostSchedule) (lhs : FVec Ideal (⟨2, ![M, K]⟩ : Shape) φ₁)
    (rhs : FVec Ideal (⟨2, ![N, K]⟩ : Shape) φ₂) (r : Fin M) (c : Fin N) :
    FloatOps.dotGeneral D prec sched lhs rhs (ix2 r c) = ∑ k : Fin K, lhs (ix2 r k) * rhs (ix2 c k) :=
  (Ideal.dotGeneral_apply D prec sched lhs rhs (ix2 r c)).trans (sum_contr D hrank hsize hlc hrc hL0 hR0 lhs rhs r c)

end Cert.LibDotNT

end
-- ==== Proof.KernelStep.lean ====
/-
  One grid step's update of the output block, read at an entry, on the extended reals.

  With the step's blocks x0 (512 rows of the left operand), w1 (a 512-row half of the first weight block) and w2 (a
  512-column half of the second), one half-step adds to the accumulator's entry (p, e) the sum over the half's 512
  hidden units j of  act (∑ d, x0(p, d) · w1(j, d)) · w2(e, j):  both matrix products contract the second axis of
  both operands and start from a zero accumulator, so each is a plain sum; the format changes between them are
  the identity; everything between the two products is entrywise and is the activation of the specification, the
  named reciprocal of the scale standing where the specification has it.
-/
import proofs.«123298_j12206297055405_2_alg».proof.Proof.KernelCases
import proofs.«123298_j12206297055405_2_alg».proof.Proof.Spec
import proofs.«123298_j12206297055405_2_alg».proof.Proof.LibDotNT
import Idealize.ShloMosaic.Lib.ValueIdx
import Idealize.ShloMosaic.Lib.Pipeline.Value
import Idealize.ShloMosaic.PureOps.Ideal.Laws
import Idealize.ShloMosaic.PureOps.IdealRules

set_option maxRecDepth 16384

noncomputable section

open Idealize.ShloMosaic Idealize.ShloMosaic.ValueIdx

namespace Cert.KernelIdeal.StepValue

open Cert.KernelIdeal Cert.KernelIdeal.Gen Cert.FfnSpec

/-- The named reciprocal of the scale is the rational the table gives it. -/
theorem inv_named : Named.named (F := Ideal) κ "inv_scale" (φ := .f32) 0x41200000#32 = recip :=
  IdealRules.named_const.ideal_named_scalar _ _ _ _ rfl

/-! ## The two products' index maps -/

theorem d1_L0 (j : S512x512.Idx) (k : dot_S512x2048_S512x2048_S512x512_1_1_0_0_n_n.contr.Idx) :
    (dot_S512x2048_S512x2048_S512x512_1_1_0_0_n_n.lhsIdx j k 0).val = (j 0).val := by
  unfold DotDims.lhsIdx
  rw [dif_neg (show ¬(0 : Fin S512x2048.rank) ∈ dot_S512x2048_S512x2048_S512x512_1_1_0_0_n_n.lhsBatch by decide),
    dif_pos (show (0 : Fin S512x2048.rank) ∈ dot_S512x2048_S512x2048_S512x512_1_1_0_0_n_n.lhsNonContracting by decide)]
  rfl

theorem d1_R0 (j : S512x512.Idx) (k : dot_S512x2048_S512x2048_S512x512_1_1_0_0_n_n.contr.Idx) :
    (dot_S512x2048_S512x2048_S512x512_1_1_0_0_n_n.rhsIdx j k 0).val = (j 1).val := by
  unfold DotDims.rhsIdx
  rw [dif_neg (show ¬(0 : Fin S512x2048.rank) ∈ dot_S512x2048_S512x2048_S512x512_1_1_0_0_n_n.rhsBatch by decide),
    dif_pos (show (0 : Fin S512x2048.rank) ∈ dot_S512x2048_S512x2048_S512x512_1_1_0_0_n_n.rhsNonContracting by decide)]
  rfl

theorem d2_L0 (j : S512x2048.Idx) (k : dot_S512x512_S2048x512_S512x2048_1_1_0_0_n_n.contr.Idx) :
    (dot_S512x512_S2048x512_S512x2048_1_1_0_0_n_n.lhsIdx j k 0).val = (j 0).val := by
  unfold DotDims.lhsIdx
  rw [dif_neg (show ¬(0 : Fin S512x512.rank) ∈ dot_S512x512_S2048x512_S512x2048_1_1_0_0_n_n.lhsBatch by decide),
    dif_pos (show (0 : Fin S512x512.rank) ∈ dot_S512x512_S2048x512_S512x2048_1_1_0_0_n_n.lhsNonContracting by decide)]
  rfl

theorem d2_R0 (j : S512x2048.Idx) (k : dot_S512x512_S2048x512_S512x2048_1_1_0_0_n_n.contr.Idx) :
    (dot_S512x512_S2048x512_S512x2048_1_1_0_0_n_n.rhsIdx j k 0).val = (j 1).val := by
  unfold DotDims.rhsIdx
  rw [dif_neg (show ¬(0 : Fin S2048x512.rank) ∈ dot_S512x512_S2048x512_S512x2048_1_1_0_0_n_n.rhsBatch by decide),
    dif_pos (show (0 : Fin S2048x512.rank) ∈ dot_S512x512_S2048x512_S512x2048_1_1_0_0_n_n.rhsNonContracting by decide)]
  rfl

/-- The first product at an entry: the inner product of row p of the left block with row j of the weight half. -/
theorem pre_apply (x0 : FVec Ideal S512x2048 .bf16) (w1 : FVec Ideal S512x2048 .bf16) (p j : Fin 512) :
    matmul dot_S512x2048_S512x2048_S512x512_1_1_0_0_n_n none x0 w1 (constant S512x512 .f32 0x00000000#32) (ix2 p j)
      = ∑ d : Fin 2048, x0 (ix2 p d) * w1 (ix2 j d) :=
  Cert.LibDotNT.matmul_zero_apply dot_S512x2048_S512x2048_S512x512_1_1_0_0_n_n rfl rfl rfl rfl d1_L0 d1_R0 none x0 w1 p j

/-- The second product at an entry: the inner product of row p of the activations with row e of the weight half. -/
theorem post_apply (a : FVec Ideal S512x512 .bf16) (w2 : FVec Ideal S2048x512 .bf16) (p : Fin 512) (e : Fin 2048) :
    matmul dot_S512x512_S2048x512_S512x2048_1_1_0_0_n_n none a w2 (constant S512x2048 .f32 0x00000000#32) (ix2 p e)
      = ∑ j : Fin 512, a (ix2 p j) * w2 (ix2 e j) :=
  Cert.LibDotNT.matmul_zero_apply dot_S512x512_S2048x512_S512x2048_1_1_0_0_n_n rfl rfl rfl rfl d2_L0 d2_R0 none a w2 p e

/-- One half-step at an entry. -/
theorem pay1_apply (x0 : FVec Ideal S512x2048 .bf16) (w1 : Vec Ideal S512x2048 .bf16) (w2 : Vec Ideal S2048x512 .bf16)
    (acc : Vec Ideal S512x2048 .f32) (p : Fin 512) (e : Fin 2048) :
    k0_pay1 (F := Ideal) x0 w1 w2 acc (ix2 p e)
      = acc (ix2 p e) + ∑ j : Fin 512, act (∑ d : Fin 2048, x0 (ix2 p d) * w1 (ix2 j d)) * w2 (ix2 e j) := by
  unfold k0_pay1
  simp only [shapeCast_self]
  refine (addf_apply _ _ _).trans ?_
  refine congrArg (acc (ix2 p e) + ·) ?_
  refine (post_apply _ _ p e).trans ?_
  refine Finset.sum_congr rfl fun j _ => ?_
  refine congrArg (· * w2 (ix2 e j)) ?_
  refine Eq.trans ?_ (congrArg act (pre_apply x0 w1 p j))
  generalize matmul dot_S512x2048_S512x2048_S512x512_1_1_0_0_n_n none x0 w1 (constant S512x512 .f32 0x00000000#32) = H
  simp only [inv_named]
  rfl

/-- The first half-step is a half-step from the starting block: the printed body spells the same operations twice. -/
theorem pay4_eq (x0 : Vec Ideal S512x2048 .bf16) (w1 : Vec Ideal S512x2048 .bf16) (w2 : Vec Ideal S2048x512 .bf16)
    (acc : Vec Ideal S512x2048 .f32) : k0_pay4 (F := Ideal) x0 w1 w2 acc = k0_pay1 (F := Ideal) x0 w1 w2 acc := by
  unfold k0_pay4 k0_pay1 k0_pay3
  simp only [shapeCast_self]

/-- A row half of the first weight block, read at an entry: rows o, …, o + 511 of the block. -/
theorem ld_rows (x1 : Vec Ideal S1024x2048 .bf16) (o : Nat) (inb : ∀ a, (![o, 0] : Fin 2 → Nat) a + S512x2048.size a ≤ S1024x2048.size a)
    (j : Fin 512) (d : Fin 2048) (h : o + j.val < 1024) :
    View.ld x1 (Rect.unit (s := S1024x2048) ![o, 0] S512x2048.size inb) (ix2 j d) = x1 (ix2 ⟨o + j.val, h⟩ d) := by
  show x1 _ = x1 _
  refine congrArg x1 (funext fun a => Fin.ext ?_)
  match a with
  | ⟨0, _⟩ => show o + 1 * j.val = o + j.val; omega
  | ⟨1, _⟩ => show 0 + 1 * d.val = d.val; omega

/-- A column half of the second weight block, read at an entry: columns o, …, o + 511 of the block. -/
theorem ld_cols (x2 : Vec Ideal S2048x1024 .bf16) (o : Nat) (inb : ∀ a, (![0, o] : Fin 2 → Nat) a + S2048x512.size a ≤ S2048x1024.size a)
    (e : Fin 2048) (j : Fin 512) (h : o + j.val < 1024) :
    View.ld x2 (Rect.unit (s := S2048x1024) ![0, o] S2048x512.size inb) (ix2 e j) = x2 (ix2 e ⟨o + j.val, h⟩) := by
  show x2 _ = x2 _
  refine congrArg x2 (funext fun a => Fin.ext ?_)
  match a with
  | ⟨0, _⟩ => show 0 + 1 * e.val = e.val; omega
  | ⟨1, _⟩ => show o + 1 * j.val = o + j.val; omega

/-- The contribution of hidden unit f to the result's entry (r, e), over whole arrays: the activation of row r's
    pre-activation at f times the second weight at (e, f); zero past the last hidden unit. -/
def gterm (X : (⟨2, ![8192, 2048]⟩ : Shape).Idx → EReal) (W1 : (⟨2, ![8192, 2048]⟩ : Shape).Idx → EReal)
    (W2 : (⟨2, ![2048, 8192]⟩ : Shape).Idx → EReal) (r : Fin 8192) (e : Fin 2048) (f : ℕ) : EReal :=
  if h : f < 8192 then act (∑ d : Fin 2048, X (ix2 r d) * W1 (ix2 ⟨f, h⟩ d)) * W2 (ix2 e ⟨f, h⟩) else 0

/-- One half's 512 contributions are those of hidden units 1024 k + o, …, 1024 k + o + 511. -/
theorem half_sum (X : (⟨2, ![8192, 2048]⟩ : Shape).Idx → EReal) (W1 : (⟨2, ![8192, 2048]⟩ : Shape).Idx → EReal)
    (W2 : (⟨2, ![2048, 8192]⟩ : Shape).Idx → EReal)
    (x0 : Vec Ideal S512x2048 .bf16) (x1 : Vec Ideal S1024x2048 .bf16) (x2 : Vec Ideal S2048x1024 .bf16)
    (i k : ℕ) (hi : i < 16) (hk : k < 8)
    (h0 : ∀ (p : Fin 512) (d : Fin 2048), x0 (ix2 p d) = X (ix2 ⟨i * 512 + p.val, by omega⟩ d))
    (h1 : ∀ (j : Fin 1024) (d : Fin 2048), x1 (ix2 j d) = W1 (ix2 ⟨k * 1024 + j.val, by omega⟩ d))
    (h2 : ∀ (e : Fin 2048) (j : Fin 1024), x2 (ix2 e j) = W2 (ix2 e ⟨k * 1024 + j.val, by omega⟩))
    (p : Fin 512) (e : Fin 2048) (o : ℕ) (ho : o + 512 ≤ 1024)
    (inb1 : ∀ a, (![o, 0] : Fin 2 → Nat) a + S512x2048.size a ≤ S1024x2048.size a)
    (inb2 : ∀ a, (![0, o] : Fin 2 → Nat) a + S2048x512.size a ≤ S2048x1024.size a) :
    ∑ j : Fin 512, act (∑ d : Fin 2048, x0 (ix2 p d) * View.ld x1 (Rect.unit (s := S1024x2048) ![o, 0] S512x2048.size inb1) (ix2 j d))
        * View.ld x2 (Rect.unit (s := S2048x1024) ![0, o] S2048x512.size inb2) (ix2 e j)
      = ∑ x ∈ Finset.range 512, gterm X W1 W2 ⟨i * 512 + p.val, by omega⟩ e (k * 1024 + o + x) := by
  rw [Finset.sum_range]
  refine Finset.sum_congr rfl fun j _ => ?_
  have hj : k * 1024 + o + j.val < 8192 := by have := j.isLt; omega
  have hoj : o + j.val < 1024 := by have := j.isLt; omega
  unfold gterm
  rw [dif_pos hj]
  refine congr (congrArg HMul.hMul (congrArg act (Finset.sum_congr rfl fun d _ => ?_))) ?_
  · rw [ld_rows x1 o inb1 j d hoj, h0 p d, h1 ⟨o + j.val, hoj⟩ d]
    exact congrArg (fun q => X _ * W1 (ix2 q d)) (Fin.ext (Nat.add_assoc _ _ _).symm)
  · rw [ld_cols x2 o inb2 e j hoj, h2 e ⟨o + j.val, hoj⟩]
    exact congrArg (fun q => W2 (ix2 e q)) (Fin.ext (Nat.add_assoc _ _ _).symm)

/-- THE STEP over whole arrays.  If the step's blocks are rows 512 i … of X, rows 1024 k … of W1 and columns
    1024 k … of W2, and the block starts at the contributions of the hidden units before 1024 k, it ends at the
    contributions of the hidden units before 1024 (k + 1): the two halves add units 1024 k … 1024 k + 511 and
    1024 k + 512 … 1024 k + 1023, and sums over consecutive ranges concatenate. -/
theorem step_global (X : (⟨2, ![8192, 2048]⟩ : Shape).Idx → EReal) (W1 : (⟨2, ![8192, 2048]⟩ : Shape).Idx → EReal)
    (W2 : (⟨2, ![2048, 8192]⟩ : Shape).Idx → EReal)
    (x0 : Vec Ideal S512x2048 .bf16) (x1 : Vec Ideal S1024x2048 .bf16) (x2 : Vec Ideal S2048x1024 .bf16)
    (start : Vec Ideal S512x2048 .f32) (i k : ℕ) (hi : i < 16) (hk : k < 8)
    (h0 : ∀ (p : Fin 512) (d : Fin 2048), x0 (ix2 p d) = X (ix2 ⟨i * 512 + p.val, by omega⟩ d))
    (h1 : ∀ (j : Fin 1024) (d : Fin 2048), x1 (ix2 j d) = W1 (ix2 ⟨k * 1024 + j.val, by omega⟩ d))
    (h2 : ∀ (e : Fin 2048) (j : Fin 1024), x2 (ix2 e j) = W2 (ix2 e ⟨k * 1024 + j.val, by omega⟩))
    (hs : ∀ (p : Fin 512) (e : Fin 2048), start (ix2 p e)
      = ∑ f ∈ Finset.range (k * 1024), gterm X W1 W2 ⟨i * 512 + p.val, by omega⟩ e f)
    (p : Fin 512) (e : Fin 2048) :
    Cases.step (F := Ideal) x0 x1 x2 start (ix2 p e)
      = ∑ f ∈ Finset.range ((k + 1) * 1024), gterm X W1 W2 ⟨i * 512 + p.val, by omega⟩ e f := by
  unfold Cases.step
  rw [pay4_eq, pay1_apply, pay1_apply, hs p e]
  have hk0 : k0_pay3 (F := Ideal) x0 = x0 := shapeCast_self _ _
  rw [hk0, half_sum X W1 W2 x0 x1 x2 i k hi hk h0 h1 h2 p e 0 (by omega), half_sum X W1 W2 x0 x1 x2 i k hi hk h0 h1 h2 p e 512 (by omega),
    show (k + 1) * 1024 = k * 1024 + 512 + 512 by omega, Finset.sum_range_add, Finset.sum_range_add]
  rfl

end Cert.KernelIdeal.StepValue

end
-- ==== Proof.KernelAcc.lean ====
/-
  What the output block holds after each grid step, over the whole arrays the region reads.

  The grid is 16 row tiles by 8 hidden tiles, visited row tile by row tile: point n is row tile n / 8 and hidden
  tile n % 8.  At it the three input blocks are rows 512 (n / 8) … of the left operand, rows 1024 (n % 8) … of the
  first weight matrix and columns 1024 (n % 8) … of the second.  The output block is the same for the eight points
  of a row tile; it is zeroed at the first and carried from one point to the next.  So after point n its entry
  (p, e) is the sum of the contributions of the hidden units before 1024 (n % 8 + 1) to row 512 (n / 8) + p — by
  induction on n, each step adding the next 1024 units.
-/
import proofs.«123298_j12206297055405_2_alg».proof.Proof.KernelStep

set_option maxRecDepth 16384

noncomputable section

open Idealize.ShloMosaic Idealize.ShloMosaic.TcCoe Idealize.ShloMosaic.ValueIdx Idealize.SL.Sem
open Idealize.ShloMosaic.Pipeline (Dat)

namespace Cert.KernelIdeal.AccValue

open Cert.KernelIdeal Cert.KernelIdeal.Gen Cert.FfnSpec Cert.KernelIdeal.StepValue

variable (m : (ℓ : Loc nD τ sig) → Buf (Elt Ideal) ℓ)

/-- The windows' block indices at point t: row tile t / 8, hidden tile t % 8. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = 0 ∧ win0_2.index t (1 : Fin 2) = t.val % 8
    ∧ win0_3.index t (0 : Fin 2) = t.val / 8 ∧ win0_3.index t (1 : Fin 2) = 0 :=
  (by decide +kernel : ∀ t : Fin grid0.N, _)

/-- The left operand's block at point t: rows 512 (t / 8) … of its array. -/
theorem iblk0_read (c : Dev nD) (t : Fin cfg0.N) (p : Fin 512) (d : Fin 2048) :
    (iblk m c 0 t : Vec Ideal S512x2048 .bf16) (ix2 p d)
      = (V m c main_v1 : S8192x2048.Idx → EReal) (ix2 ⟨t.val / 8 * 512 + p.val, by have := t.isLt; have : cfg0.N = 128 := N_0; omega⟩ d) := by
  obtain ⟨e0, e1, -⟩ := idx_facts t
  show V m c main_v1 (((cfg0.win 0).blk t).view.emb (ix2 p d)) = V m c main_v1 _
  refine congrArg (V m c main_v1) (funext fun a => Fin.ext ?_)
  match a with
  | ⟨0, _⟩ => show win0_0.index t (0 : Fin 2) * 512 + 1 * p.val = t.val / 8 * 512 + p.val; rw [e0]; omega
  | ⟨1, _⟩ => show win0_0.index t (1 : Fin 2) * 2048 + 1 * d.val = d.val; rw [e1]; omega

/-- The first weight matrix's block at point t: rows 1024 (t % 8) … of its array. -/
theorem iblk1_read (c : Dev nD) (t : Fin cfg0.N) (j : Fin 1024) (d : Fin 2048) :
    (iblk m c 1 t : Vec Ideal S1024x2048 .bf16) (ix2 j d)
      = (V m c main_v2 : S8192x2048.Idx → EReal) (ix2 ⟨t.val % 8 * 1024 + j.val, by omega⟩ d) := by
  obtain ⟨-, -, e0, e1, -⟩ := idx_facts t
  show V m c main_v2 (((cfg0.win 1).blk t).view.emb (ix2 j d)) = V m c main_v2 _
  refine congrArg (V m c main_v2) (funext fun a => Fin.ext ?_)
  match a with
  | ⟨0, _⟩ => show win0_1.index t (0 : Fin 2) * 1024 + 1 * j.val = t.val % 8 * 1024 + j.val; rw [e0]; omega
  | ⟨1, _⟩ => show win0_1.index t (1 : Fin 2) * 2048 + 1 * d.val = d.val; rw [e1]; omega

/-- The second weight matrix's block at point t: columns 1024 (t % 8) … of its array. -/
theorem iblk2_read (c : Dev nD) (t : Fin cfg0.N) (e : Fin 2048) (j : Fin 1024) :
    (iblk m c 2 t : Vec Ideal S2048x1024 .bf16) (ix2 e j)
      = (V m c main_v3 : S2048x8192.Idx → EReal) (ix2 e ⟨t.val % 8 * 1024 + j.val, by omega⟩) := by
  obtain ⟨-, -, -, -, e0, e1, -⟩ := idx_facts t
  show V m c main_v3 (((cfg0.win 2).blk t).view.emb (ix2 e j)) = V m c main_v3 _
  refine congrArg (V m c main_v3) (funext fun a => Fin.ext ?_)
  match a with
  | ⟨0, _⟩ => show win0_2.index t (0 : Fin 2) * 2048 + 1 * e.val = e.val; rw [e0]; omega
  | ⟨1, _⟩ => show win0_2.index t (1 : Fin 2) * 1024 + 1 * j.val = t.val % 8 * 1024 + j.val; rw [e1]; omega

/-- The zero block's entries are zero. -/
theorem pay2_zero (p : Fin 512) (e : Fin 2048) : (k0_pay2 (F := Ideal) : Vec Ideal S512x2048 .f32) (ix2 p e) = 0 :=
  ofBits_zero

/-- One step at point t over the whole arrays, from a block that starts at the contributions before hidden tile
    t % 8: it ends at the contributions before hidden tile t % 8 + 1. -/
theorem step_at (c : Dev nD) (t : Fin cfg0.N) (start : Vec Ideal S512x2048 .f32)
    (hs : ∀ (p : Fin 512) (e : Fin 2048), start (ix2 p e)
      = ∑ f ∈ Finset.range (t.val % 8 * 1024), gterm (V m c main_v1) (V m c main_v2) (V m c main_v3)
          ⟨t.val / 8 * 512 + p.val, by have := t.isLt; have : cfg0.N = 128 := N_0; omega⟩ e f)
    (p : Fin 512) (e : Fin 2048) :
    Cases.step (F := Ideal) (iblk m c 0 t) (iblk m c 1 t) (iblk m c 2 t) start (ix2 p e)
      = ∑ f ∈ Finset.range ((t.val % 8 + 1) * 1024), gterm (V m c main_v1) (V m c main_v2) (V m c main_v3)
          ⟨t.val / 8 * 512 + p.val, by have := t.isLt; have : cfg0.N = 128 := N_0; omega⟩ e f :=
  step_global (V m c main_v1) (V m c main_v2) (V m c main_v3) (iblk m c 0 t) (iblk m c 1 t) (iblk m c 2 t) start
    (t.val / 8) (t.val % 8) (by have := t.isLt; have : cfg0.N = 128 := N_0; omega) (by omega)
    (iblk0_read m c t) (iblk1_read m c t) (iblk2_read m c t) hs p e

/-- THE INVARIANT: after point n the output block's entry (p, e) is the sum of the contributions of the hidden
    units before 1024 (n % 8 + 1) to row 512 (n / 8) + p. -/
theorem outsAt_eq (c : Dev nD) : ∀ (n : ℕ) (h : n < cfg0.N) (p : Fin 512) (e : Fin 2048),
    (outsAt0 m c n h : Vec Ideal S512x2048 .f32) (ix2 p e)
      = ∑ f ∈ Finset.range ((n % 8 + 1) * 1024), gterm (V m c main_v1) (V m c main_v2) (V m c main_v3)
          ⟨n / 8 * 512 + p.val, by have : cfg0.N = 128 := N_0; omega⟩ e f
  | 0, h, p, e => by
    rw [outsAt0_A m c ⟨0, h⟩ rfl, Cases.out_A]
    exact step_at m c ⟨0, h⟩ _ (fun p e => by
      rw [show (⟨0, h⟩ : Fin cfg0.N).val % 8 * 1024 = 0 from rfl, Finset.range_zero, Finset.sum_empty]
      exact pay2_zero p e) p e
  | n + 1, h, p, e => by
    by_cases h0 : (n + 1) % 8 = 0
    · rw [outsAt0_A m c ⟨n + 1, h⟩ h0, Cases.out_A]
      exact step_at m c ⟨n + 1, h⟩ _ (fun p e => by
        rw [show (⟨n + 1, h⟩ : Fin cfg0.N).val % 8 * 1024 = 0 from by show (n + 1) % 8 * 1024 = 0; rw [h0],
          Finset.range_zero, Finset.sum_empty]
        exact pay2_zero p e) p e
    · rw [outsAt0_B m c ⟨n + 1, h⟩ h0, Cases.out_B]
      refine step_at m c ⟨n + 1, h⟩ (outsAt0 m c n (Nat.lt_of_succ_lt h)) (fun p e => ?_) p e
      rw [outsAt_eq c n (Nat.lt_of_succ_lt h) p e]
      have e1 : (n + 1) / 8 = n / 8 := by omega
      have e2 : (n + 1) % 8 = n % 8 + 1 := by omega
      refine Finset.sum_congr (by show Finset.range ((n % 8 + 1) * 1024) = Finset.range ((n + 1) % 8 * 1024); rw [e2]) (fun f _ => ?_)
      exact congrArg (fun q => gterm (V m c main_v1) (V m c main_v2) (V m c main_v3) q e f)
        (Fin.ext (by show n / 8 * 512 + p.val = (n + 1) / 8 * 512 + p.val; rw [e1]))

end Cert.KernelIdeal.AccValue

end
-- ==== Proof.KernelArray.lean ====
/-
  The region's output array after the run.

  The output block of row tile i is written back once, after the row tile's last point 8 i + 7; by then it holds,
  at entry (p, e), the contributions of all 8192 hidden units to row 512 i + p.  That is block i of one function of
  the region's three input arrays; the sixteen row tiles cover the 8192 rows, so the output array ends holding that
  function.
-/
import proofs.«123298_j12206297055405_2_alg».proof.Proof.KernelAcc

set_option maxRecDepth 16384

noncomputable section

open Idealize.ShloMosaic Idealize.ShloMosaic.TcCoe Idealize.ShloMosaic.ValueIdx Idealize.SL.Sem
open Idealize.ShloMosaic.Pipeline (Dat)

namespace Cert.KernelIdeal.ArrayValue

open Cert.KernelIdeal Cert.KernelIdeal.Gen Cert.FfnSpec Cert.KernelIdeal.StepValue Cert.KernelIdeal.AccValue

variable (m : (ℓ : Loc nD τ sig) → Buf (Elt Ideal) ℓ)

/-- The output array as one function of the region's input arrays: entry (r, e) is the sum over all hidden units. -/
def out2 (X : (⟨2, ![8192, 2048]⟩ : Shape).Idx → EReal) (W1 : (⟨2, ![8192, 2048]⟩ : Shape).Idx → EReal)
    (W2 : (⟨2, ![2048, 8192]⟩ : Shape).Idx → EReal) : (⟨2, ![8192, 2048]⟩ : Shape).Idx → EReal :=
  fun j => ∑ f ∈ Finset.range 8192, gterm X W1 W2 (j 0) (j 1) f

theorem out2_apply (X : (⟨2, ![8192, 2048]⟩ : Shape).Idx → EReal) (W1 : (⟨2, ![8192, 2048]⟩ : Shape).Idx → EReal)
    (W2 : (⟨2, ![2048, 8192]⟩ : Shape).Idx → EReal) (j : (⟨2, ![8192, 2048]⟩ : Shape).Idx) (r : Fin 8192) (e : Fin 2048)
    (hr : (j 0).val = r.val) (he : (j 1).val = e.val) :
    out2 X W1 W2 j = ∑ f ∈ Finset.range 8192, gterm X W1 W2 r e f := by
  have hj : j = ix2 r e := funext fun a => Fin.ext (by
    match a with
    | ⟨0, _⟩ => exact hr
    | ⟨1, _⟩ => exact he)
  subst hj
  rfl

/-- WHAT A FLUSHING POINT WRITES BACK is its block of the whole-array function. -/
theorem flushed_eq (c : Dev nD) (t : Fin cfg0.N) (hf : (cfg0.win 3).flush t = true) :
    (dats m 0 c).flushed 3 t
      = ((cfg0.win 3).blk t).view.read (Elt Ideal) (out2 (V m c main_v1) (V m c main_v2) (V m c main_v3)) := by
  have h7 : t.val % 8 = 7 := (flush0_3 t).mp hf
  obtain ⟨-, -, -, -, -, -, e0, e1⟩ := idx_facts t
  show (cfg0.win 3).cut (grid0.coords t) ((dats m 0 c).after 3 t) = _
  rw [after0_3]
  funext y
  obtain ⟨p, e, rfl⟩ : ∃ (p : Fin 512) (e : Fin 2048), y = ix2 p e := ⟨y 0, y 1, eq_ix2 y⟩
  show (outsAt0 m c t.val t.isLt : Vec Ideal S512x2048 .f32) (ix2 p e)
    = out2 (V m c main_v1) (V m c main_v2) (V m c main_v3) (((cfg0.win 3).blk t).view.emb (ix2 p e))
  rw [outsAt_eq m c t.val t.isLt p e, show (t.val % 8 + 1) * 1024 = 8192 by omega]
  refine (out2_apply _ _ _ _ _ e ?_ ?_).symm
  · show win0_3.index t (0 : Fin 2) * 512 + 1 * p.val = t.val / 8 * 512 + p.val; rw [e0]; omega
  · show win0_3.index t (1 : Fin 2) * 2048 + 1 * e.val = e.val; rw [e1]; omega

/-- An index of the array is in point t's block iff each coordinate is in the block's range on its axis. -/
theorem mem_blk (t : Fin cfg0.N) (i : S8192x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v4).slice (win0_3.rect t)).set ↔ _
  rw [View.set_slice_whole, Rect.mem_set_unit]
  exact Iff.rfl

/-- THE OUTPUT ARRAY after the run: the whole-array function of the region's input arrays. -/
theorem final (c : Dev nD) :
    (dats m 0 c).arrAt 3 cfg0.N = out2 (V m c main_v1) (V m c main_v2) (V m c main_v3) :=
  (dats m 0 c).arrAt_eq_of_cover 3 _ (fun t hf => flushed_eq m c t hf) fun i => by
    have hi0 : (i 0).val < 8192 := (i 0).isLt
    have hi1 : (i 1).val < 2048 := (i 1).isLt
    have hN : cfg0.N = 128 := N_0
    refine ⟨⟨(i 0).val / 512 * 8 + 7, by omega⟩, (flush0_3 _).mpr (by show ((i 0).val / 512 * 8 + 7) % 8 = 7; omega), ?_⟩
    rw [mem_blk]
    obtain ⟨-, -, -, -, -, -, e0, e1⟩ := idx_facts ⟨(i 0).val / 512 * 8 + 7, by omega⟩
    intro a
    match a with
    | ⟨0, _⟩ =>
      show win0_3.index _ (0 : Fin 2) * 512 ≤ (i 0).val ∧ (i 0).val < win0_3.index _ (0 : Fin 2) * 512 + 512
      rw [e0]; show ((i 0).val / 512 * 8 + 7) / 8 * 512 ≤ (i 0).val ∧ (i 0).val < ((i 0).val / 512 * 8 + 7) / 8 * 512 + 512; omega
    | ⟨1, _⟩ =>
      show win0_3.index _ (1 : Fin 2) * 2048 ≤ (i 1).val ∧ (i 1).val < win0_3.index _ (1 : Fin 2) * 2048 + 2048
      rw [e1]; omega

end Cert.KernelIdeal.ArrayValue

end
-- ==== Proof.KernelHost.lean ====
import proofs.«123298_j12206297055405_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

/-!
  What the program does around its region, on the extended reals, read at an index.

  Before the region the activations x : [4, 2048, 2048] are laid out as 8192 rows of length 2048, row b · 2048 + s
  being x(b, s, ·), and the three operands are narrowed to a shorter float format; on the extended reals a narrowing
  is the identity, so the region finds the rows of x, W1 and W2 themselves.  After the region the 8192 result rows
  are laid out again as [4, 2048, 2048]: the result at (b, s, e) is row b · 2048 + s, column e, of what the region
  wrote.  Both layouts keep the row-major position, which is all that is used.
-/

noncomputable section

namespace Cert.KernelIdeal.HostValue

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD)

/-! ## The two layouts read at an index -/

/-- A [4, 2048, 2048] array read as [8192, 2048]: row r of the result is row (r / 2048, r % 2048) of the operand,
    since both have row-major position r · 2048 + d and r = (r / 2048) · 2048 + r % 2048. -/
theorem rows_apply {α : Type} (x : (⟨3, ![4, 2048, 2048]⟩ : Shape).Idx → α)
    (h : (⟨3, ![4, 2048, 2048]⟩ : Shape).ShapeCasts ⟨2, ![8192, 2048]⟩) (r : Fin 8192) (d : Fin 2048) :
    shapeCast ⟨2, ![8192, 2048]⟩ x h (ix2 r d)
      = x (ix3 (⟨r.val / 2048, by omega⟩ : Fin 4) (⟨r.val % 2048, by omega⟩ : Fin 2048) d) :=
  shapeCast_apply x h _ _ (by
    rw [Shape.rowMajor_val_three, Shape.rowMajor_val_two]
    show (r.val / 2048 * 2048 + r.val % 2048) * 2048 + d.val = r.val * 2048 + d.val
    omega)

/-- An [8192, 2048] array read as [4, 2048, 2048]: the result at (b, s, e) is the operand at row b · 2048 + s,
    column e; the two row-major positions are the same expression. -/
theorem unrows_apply {α : Type} (x : (⟨2, ![8192, 2048]⟩ : Shape).Idx → α)
    (h : (⟨2, ![8192, 2048]⟩ : Shape).ShapeCasts ⟨3, ![4, 2048, 2048]⟩) (b : Fin 4) (s : Fin 2048) (e : Fin 2048) :
    shapeCast ⟨3, ![4, 2048, 2048]⟩ x h (ix3 b s e)
      = x (ix2 (⟨b.val * 2048 + s.val, by omega⟩ : Fin 8192) e) :=
  shapeCast_apply x h _ _ (by
    rw [Shape.rowMajor_val_three, Shape.rowMajor_val_two]
    show (b.val * 2048 + s.val) * 2048 + e.val = (b.val * 2048 + s.val) * 2048 + e.val
    rfl)

/-! ## Before the region -/

/-- The region finds W1 as launched: its narrowing is the identity on the extended reals. -/
theorem V_w1 : (V (F := Ideal) m c main_v2 : S8192x2048.Idx → EReal)
    = (m ((c : Thread nD τ).loc main_arg1) : S8192x2048.Idx → EReal) := by
  show StableHlo.after hostOps0 (fun b => m (c, b)) (Proc.devRef .tc main_v2) = _
  after_results
  rfl

/-- The region finds W2 as launched, for the same reason. -/
theorem V_w2 : (V (F := Ideal) m c main_v3 : S2048x8192.Idx → EReal)
    = (m ((c : Thread nD τ).loc main_arg2) : S2048x8192.Idx → EReal) := by
  show StableHlo.after hostOps0 (fun b => m (c, b)) (Proc.devRef .tc main_v3) = _
  after_results
  rfl

/-- The region finds the activations laid out as 8192 rows: the narrowing of the re-laid-out x is that array itself. -/
theorem V_x_cast : (V (F := Ideal) m c main_v1 : S8192x2048.Idx → EReal)
    = shapeCast S8192x2048 (m ((c : Thread nD τ).loc main_arg0) : S4x2048x2048.Idx → EReal)
        shapeCasts_S4x2048x2048_S8192x2048 := by
  show StableHlo.after hostOps0 (fun b => m (c, b)) (Proc.devRef .tc main_v1) = _
  after_results
  rfl

/-- Row r, column d, of what the region finds is x(r / 2048, r % 2048, d). -/
theorem V_x (r : Fin 8192) (d : Fin 2048) :
    (V (F := Ideal) m c main_v1 : S8192x2048.Idx → EReal) (ix2 r d)
      = (m ((c : Thread nD τ).loc main_arg0) : S4x2048x2048.Idx → EReal)
          (ix3 (⟨r.val / 2048, by omega⟩ : Fin 4) (⟨r.val % 2048, by omega⟩ : Fin 2048) d) := by
  rw [V_x_cast]
  exact rows_apply _ _ r d

/-! ## After the region -/

/-- The final result buffer is neither scoped nor one of the region's arrays: the region passes it by. -/
theorem v5_rest : main_v5 ∈ Pipeline.restRefs sig (cfgs 0).spec :=
  Pipeline.mem_restRefs_of main_v5 (by decide) (by decide)

/-- The final result is the region's output array, as the region leaves it, laid out as [4, 2048, 2048]. -/
theorem tail_cast :
    (Pipeline.afterTail₀ cfgs (dats m) 0 (V0 m) [hostOps1] c main_v5 : S4x2048x2048.Idx → EReal)
      = shapeCast S4x2048x2048 ((dats m 0 c).arrAt 3 cfg0.N : S8192x2048.Idx → EReal)
          shapeCasts_S8192x2048_S4x2048x2048 := by
  unfold Pipeline.afterTail₀
  show StableHlo.after hostOps1 _ (Proc.devRef .tc main_v5) = _
  after_results
  exact congrArg (fun a : S8192x2048.Idx → EReal => shapeCast S4x2048x2048 a shapeCasts_S8192x2048_S4x2048x2048)
    (Pipeline.withArrays_arr spec0 launch0.win.arr_inj c (V0 m c) (fun w => (dats m 0 c).arrAt w (cfgs 0).N) 3)

/-- The final result at (b, s, e) is row b · 2048 + s, column e, of the region's output array. -/
theorem tail_result (b : Fin 4) (s : Fin 2048) (e : Fin 2048) :
    (Pipeline.afterTail₀ cfgs (dats m) 0 (V0 m) [hostOps1] c main_v5 : S4x2048x2048.Idx → EReal) (ix3 b s e)
      = ((dats m 0 c).arrAt 3 cfg0.N : S8192x2048.Idx → EReal)
          (ix2 (⟨b.val * 2048 + s.val, by omega⟩ : Fin 8192) e) := by
  rw [tail_cast]
  exact unrows_apply _ _ b s e

end Cert.KernelIdeal.HostValue

end
-- ==== Proof.KernelValue.lean ====
/-
  The kernel program's result as the specification's function of its arguments.

  The program flattens the batch and sequence axes of x (row r = 2048 b + s), changes the three arguments' format
  (the identity on the extended reals), runs the region, and restores the two axes.  The region's output array at
  (r, e) is the sum over all hidden units f of act (∑ d, X(r, d) · W1(f, d)) · W2(e, f); read through the two
  reshapes at (b, s, e) this is the specification's G of the arguments.
-/
import proofs.«123298_j12206297055405_2_alg».proof.Proof.KernelArray
import proofs.«123298_j12206297055405_2_alg».proof.Proof.KernelHost

set_option maxRecDepth 16384

noncomputable section

open Idealize.ShloMosaic Idealize.ShloMosaic.TcCoe Idealize.ShloMosaic.ValueIdx Idealize.SL.Sem
open Idealize.ShloMosaic.Pipeline (Dat)

namespace Cert.KernelIdeal.KValue

open Cert.KernelIdeal Cert.KernelIdeal.Gen Cert.FfnSpec Cert.KernelIdeal.StepValue Cert.KernelIdeal.ArrayValue
  Cert.KernelIdeal.HostValue

variable (m : (ℓ : Loc nD τ sig) → Buf (Elt Ideal) ℓ) (ρ : Dev nD → PrngReg)

/-- The region's output function at row 2048 b + s, over the flattened x, is the specification's G at (b, s, ·). -/
theorem out2_is_G (x : (⟨3, ![4, 2048, 2048]⟩ : Shape).Idx → EReal) (w1 : (⟨2, ![8192, 2048]⟩ : Shape).Idx → EReal)
    (w2 : (⟨2, ![2048, 8192]⟩ : Shape).Idx → EReal) (X : (⟨2, ![8192, 2048]⟩ : Shape).Idx → EReal)
    (hX : ∀ (r : Fin 8192) (d : Fin 2048),
      X (ix2 r d) = x (ix3 (⟨r.val / 2048, by omega⟩ : Fin 4) (⟨r.val % 2048, by omega⟩ : Fin 2048) d))
    (b : Fin 4) (s : Fin 2048) (e : Fin 2048) (hr : b.val * 2048 + s.val < 8192) :
    out2 X w1 w2 (ix2 (⟨b.val * 2048 + s.val, hr⟩ : Fin 8192) e) = G x w1 w2 (ix3 b s e) := by
  rw [out2_apply X w1 w2 _ ⟨b.val * 2048 + s.val, hr⟩ e rfl rfl, Finset.sum_range]
  show _ = ∑ f : Fin 8192, act (pre x w1 b s f) * w2 (ix2 e f)
  refine Finset.sum_congr rfl fun f _ => ?_
  unfold gterm pre
  rw [dif_pos f.isLt]
  refine congrArg (fun z => act z * w2 (ix2 e f)) (Finset.sum_congr rfl fun d _ => ?_)
  rw [hX ⟨b.val * 2048 + s.val, hr⟩ d]
  exact congrArg (fun q => x q * w1 (ix2 f d))
    (funext fun a => Fin.ext (by
      match a with
      | ⟨0, _⟩ => show (b.val * 2048 + s.val) / 2048 = b.val; omega
      | ⟨1, _⟩ => show (b.val * 2048 + s.val) % 2048 = s.val; omega
      | ⟨2, _⟩ => rfl))

/-- The result buffer after the host operations that follow the region is G of the arguments' launch contents. -/
theorem result_eq (c : Dev nD) :
    (Pipeline.afterTail₀ cfgs (dats m) 0 (V0 m) [hostOps1] c main_v5 : S4x2048x2048.Idx → EReal)
      = G (m ((c : Thread nD τ).loc main_arg0)) (m ((c : Thread nD τ).loc main_arg1)) (m ((c : Thread nD τ).loc main_arg2)) := by
  funext i
  obtain ⟨b, s, e, rfl⟩ : ∃ (b : Fin 4) (s : Fin 2048) (e : Fin 2048), i = ix3 b s e := ⟨i 0, i 1, i 2, eq_ix3 i⟩
  rw [tail_result m c b s e, ArrayValue.final m c, V_w1 m c, V_w2 m c]
  exact out2_is_G _ _ _ _ (V_x m c) b s e _

/-- THE KERNEL'S RUN: every weakly fair execution terminates with the result at G of the arguments and the arguments
    unchanged. -/
theorem run : θ_run defs (onTc (τ := τ) (main (F := Ideal))) ⟨m, fun _ => 0, ρ⟩ fun r => ∀ c : Dev nD,
      r.2.mem ((c.tc : Thread nD τ).loc main_v5)
        = G (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 v5_rest).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.lean ====
/-
  The kernel and its reference compute one function on the extended reals.

  Both programs take x : [4, 2048, 2048], W1 : [8192, 2048], W2 : [2048, 8192] and return, at (b, s, e),

      ∑ f < 8192,  act (∑ d < 2048, x(b, s, d) · W1(f, d)) · W2(e, f),

  act h = gelu (clip (round (h · r)) · c), with c the scale (the binary32 word nearest one tenth) and r its
  reciprocal.  The reference divides the pre-activation by c; the kernel multiplies it by a constant named r, whose
  value on the extended reals is exactly 1 / c (the one entry of the idealization's table, stated by `preserves`);
  a quotient by a nonzero real is the product with its reciprocal on every extended real, so no finiteness of the
  inputs is used.  The kernel tiles the 8192 rows (b, s) by 512 and the 8192 hidden units f by 1024, splits each
  hidden tile in two halves, and accumulates the halves' partial products into an output block zeroed at the first
  hidden tile: sums over consecutive ranges concatenate, and addition of extended reals is associative and
  commutative, so the accumulated block is the whole sum.  The reshapes around the kernel's region keep row-major
  positions, and the changes of float format are the identity.

  Proof/Spec.lean states the function and the activation's two spellings; Proof/RefIsG.lean reads the reference;
  Proof/KernelCases.lean, KernelStep.lean, KernelAcc.lean, KernelArray.lean, KernelHost.lean and KernelValue.lean read the
  kernel: the two control cases of a grid step, a step at an entry, the accumulation by induction on the grid
  point, the output array from its blocks, the host operations around the region, and the program's run.
-/
import proofs.«123298_j12206297055405_2_alg».proof.Defs
import proofs.«123298_j12206297055405_2_alg».proof.Proof.Gen.Kernel
import proofs.«123298_j12206297055405_2_alg».proof.Proof.Gen.Kernel.Skeleton
import proofs.«123298_j12206297055405_2_alg».proof.Proof.Gen.Kernel.Launch
import proofs.«123298_j12206297055405_2_alg».proof.Proof.Gen.Kernel.Points
import proofs.«123298_j12206297055405_2_alg».proof.Proof.Gen.Kernel.Frame
import proofs.«123298_j12206297055405_2_alg».proof.Proof.Gen.KernelIdeal
import proofs.«123298_j12206297055405_2_alg».proof.Proof.Gen.KernelIdeal.Skeleton
import proofs.«123298_j12206297055405_2_alg».proof.Proof.Gen.KernelIdeal.Launch
import proofs.«123298_j12206297055405_2_alg».proof.Proof.Gen.KernelIdeal.Points
import proofs.«123298_j12206297055405_2_alg».proof.Proof.Gen.KernelIdeal.Frame
import proofs.«123298_j12206297055405_2_alg».proof.Proof.Gen.ReferenceIdeal
import proofs.«123298_j12206297055405_2_alg».proof.Proof.Gen.Pre_finite_inputs
import proofs.«123298_j12206297055405_2_alg».proof.Proof.Gen.ReferenceIdeal.Run
import proofs.«123298_j12206297055405_2_alg».proof.Proof.Gen.ReferenceIdeal.Read
import proofs.«123298_j12206297055405_2_alg».proof.Proof.RefIsG
import proofs.«123298_j12206297055405_2_alg».proof.Proof.KernelValue
import Idealize.ShloMosaic.Adequacy
import Idealize.ShloMosaic.Init

noncomputable section

namespace Cert.Proof

open Idealize.ShloMosaic Idealize.SL.Sem

/-- The word-level kernel runs and keeps its arguments. -/
theorem frame_k [Cert.Kernel.Facts] [Cert.Pre_finite_inputs.Facts] : Cert.frame_Kernel :=
  fun m ρ _ => Cert.Kernel.Gen.frame m ρ

/-- So does its idealization. -/
theorem frame_ki [Cert.KernelIdeal.Facts] [Cert.Pre_finite_inputs.Facts] : Cert.frame_KernelIdeal :=
  fun m ρ _ => Cert.KernelIdeal.Gen.frame m ρ

/-- The reference runs and keeps its arguments: its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- The idealization's two rewrites are one named constant at its two sites: the table gives the name the
    reciprocal of the scale. -/
theorem preserves : Cert.preserves_Kernel_KernelIdeal :=
  ⟨IdealRules.named_const.statement Cert.KernelIdeal.κ "inv_scale" .f32 0x41200000#32 ((134217728 / 13421773 : ℝ) : EReal) rfl,
    IdealRules.named_const.statement Cert.KernelIdeal.κ "inv_scale" .f32 0x41200000#32 ((134217728 / 13421773 : ℝ) : EReal) rfl⟩

/-- From memories that agree on the arguments both programs end with the specification's function of them. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.FfnSpec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v20_eq, Cert.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
